-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x800000 32 := (extractStridedSlice S1x800000 ![1, 0] · slices_S2x800000_S1x800000_1_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_c_9 : IVec S_ 1 := constantI S_ 1 1#1
  let main_v28 : IVec S_ 1 := (fun x v => Host.reduce IntOp.andi x v reducesTo_S800000_S_d0 h_S_) main_v27 main_c_9
  let main_v29 : IVec S_ 1 := andi main_v23 main_v28
  main_v29

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 31
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S100000x128, .f32⟩
  | .hbm, ⟨21, _⟩ => ⟨S800000x1, .i32⟩
  | .hbm, ⟨22, _⟩ => ⟨S100000x128, .f32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Mlp.lean ====
/-
  The function both programs compute, stated once over plain arrays of extended reals.

  A node array `h : [100000, 128]` is sent through two dense layers with a rectifier between them,
  each layer the product with the TRANSPOSE of its weight matrix plus a bias row:

      hidden h W1 b1 p k = max (∑ k', h[p, k'] · W1[k, k'] + b1[k]) 0
      mlp h W1 b1 W2 b2 [p, q] = ∑ k, hidden p k · W2[q, k] + b2[q]

  Row `p` of the result depends on row `p` of `h` only, which is why a kernel may compute it one block of
  rows at a time. Nothing here is specific to how `h` was obtained.
-/
import Idealize.ShloMosaic.PureOps.Ideal
import Idealize.ShloMosaic.Lib.ValueIdx

noncomputable section

namespace Cert.Gin

open Idealize.ShloMosaic Idealize.ShloMosaic.ValueIdx

/-- The node features: one row of 128 per node. -/
abbrev Nodes : Shape := ⟨2, ![100000, 128]⟩
/-- A layer's weight matrix. -/
abbrev Weights : Shape := ⟨2, ![128, 128]⟩
/-- A layer's bias. -/
abbrev Bias : Shape := ⟨1, ![128]⟩

/-- The rectifier's threshold: the word of `+0.0`, kept as a word so that neither side ever evaluates it. -/
abbrev zeroWord : EReal := Ideal.ofBits .f32 0x00000000#32

/-- Entry `k` of node `p`'s hidden layer: row `p` of `h` against row `k` of `W1`, plus the bias, rectified. -/
def hidden (h : Nodes.Idx → EReal) (W1 : Weights.Idx → EReal) (b1 : Bias.Idx → EReal) (p : Fin 100000) (k : Fin 128) : EReal :=
  max ((∑ k' : Fin 128, h (ix2 p k') * W1 (ix2 k k')) + b1 (ix1 k)) zeroWord

/-- The two-layer network of the node array `h`: entry `[p, q]` is node `p`'s hidden layer against row `q` of `W2`,
    plus the second bias. -/
def mlp (h : Nodes.Idx → EReal) (W1 : Weights.Idx → EReal) (b1 : Bias.Idx → EReal) (W2 : Weights.Idx → EReal)
    (b2 : Bias.Idx → EReal) : Nodes.Idx → EReal :=
  fun i => (∑ k : Fin 128, hidden h W1 b1 (i 0) k * W2 (ix2 (i 1) k)) + b2 (ix1 (i 1))

theorem mlp_apply (h : Nodes.Idx → EReal) (W1 : Weights.Idx → EReal) (b1 : Bias.Idx → EReal) (W2 : Weights.Idx → EReal)
    (b2 : Bias.Idx → EReal) (p : Fin 100000) (q : Fin 128) :
    mlp h W1 b1 W2 b2 (ix2 p q) = (∑ k : Fin 128, hidden h W1 b1 p k * W2 (ix2 q k)) + b2 (ix1 q) := rfl

end Cert.Gin

end
-- ==== Proof.RefMlp.lean ====
/-
  The reference's result is the two-layer network of its node array.

  The reference transposes each weight matrix and contracts the node array's columns with the transposed matrix's
  rows, so entry `[p, q]` of a product is `∑ k, lhs[p, k] · W[q, k]`: row against row, which is how `Cert.Gin.mlp`
  is written. Each bias is first laid out as one row and that row repeated for every node, so at `[p, q]` it is
  `b[q]`. The rectifier is the maximum with an array of the zero word.
-/
import proofs.«158190_j13529146982749_2_alg».proof.Proof.Gen.ReferenceIdeal.Read
import proofs.«158190_j13529146982749_2_alg».proof.Proof.Mlp

noncomputable section

namespace Cert.Gin.Ref

open Idealize.ShloMosaic Idealize.ShloMosaic.ValueIdx Cert.ReferenceIdeal Cert.ReferenceIdeal.Read

/-! ## Where each stage reads its operands -/

/-- The second product's left factor at `[p, q]`, term `k`: the hidden layer at `[p, k]`. -/
theorem left2 (p : Fin 100000) (q k : Fin 128) : lidx_main_v22 (ix2 p q) k = ix2 p k :=
  funext fun a => Fin.ext (by match a with | ⟨0, _⟩ => rfl | ⟨1, _⟩ => rfl)

/-- Its right factor, read through the transpose: `W2[q, k]`. -/
theorem right2 (p : Fin 100000) (q k : Fin 128) : idx_main_v21 (ridx_main_v22 (ix2 p q) k) = ix2 q k :=
  funext fun a => Fin.ext (by match a with | ⟨0, _⟩ => rfl | ⟨1, _⟩ => rfl)

/-- The first product's left factor at `[p, k]`, term `k'`: the node array at `[p, k']`. -/
theorem left1 (p : Fin 100000) (k k' : Fin 128) : lidx_main_v16 (ix2 p k) k' = ix2 p k' :=
  funext fun a => Fin.ext (by match a with | ⟨0, _⟩ => rfl | ⟨1, _⟩ => rfl)

/-- Its right factor, read through the transpose: `W1[k, k']`. -/
theorem right1 (p : Fin 100000) (k k' : Fin 128) : idx_main_v15 (ridx_main_v16 (ix2 p k) k') = ix2 k k' :=
  funext fun a => Fin.ext (by match a with | ⟨0, _⟩ => rfl | ⟨1, _⟩ => rfl)

/-- The first bias, repeated over the nodes, at `[p, k]` is `b1[k]`. -/
theorem bias1 (p : Fin 100000) (k : Fin 128) : idx_main_v17 (idx_main_v18 (ix2 p k)) = ix1 k :=
  funext fun a => Fin.ext (by match a with | ⟨0, _⟩ => rfl)

/-- The second bias at `[p, q]` is `b2[q]`. -/
theorem bias2 (p : Fin 100000) (q : Fin 128) : idx_main_v23 (idx_main_v24 (ix2 p q)) = ix1 q :=
  funext fun a => Fin.ext (by match a with | ⟨0, _⟩ => rfl)

/-! ## The result -/

/-- The reference's last stage is the network of its node-array stage (the features plus the aggregated messages). -/
theorem result_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v25 (F := Ideal) x0 x1 x2 x3 x4 x5 = Cert.Gin.mlp (val_main_v14 (F := Ideal) x0 x1) x2 x3 x4 x5 := by
  funext i
  obtain ⟨p, q, rfl⟩ : ∃ (p : Fin 100000) (q : Fin 128), i = ix2 p q := ⟨i 0, i 1, eq_ix2 i⟩
  rw [val_main_v25_apply, val_main_v22_apply, val_main_v24_apply, val_main_v23_apply, bias2, Cert.Gin.mlp_apply]
  refine congrArg (· + x5 (ix1 q)) (Finset.sum_congr rfl fun k _ => ?_)
  rw [left2, val_main_v21_apply, right2, val_main_v20_apply, val_main_v19_apply, val_main_v16_apply, val_main_v18_apply,
    val_main_v17_apply, bias1, val_main_call0_v0_apply, val_main_call0_cst_apply]
  refine congrArg (· * x4 (ix2 q k)) ?_
  unfold Cert.Gin.hidden
  refine congrArg (fun s => max (s + x3 (ix1 k)) Cert.Gin.zeroWord) (Finset.sum_congr rfl fun k' _ => ?_)
  rw [left1, val_main_v15_apply, right1]

end Cert.Gin.Ref

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.Payload.lean ====
/-
  What the kernel body stores, read at one entry.

  The body loads a block of 2000 node rows `x0`, both weight matrices `x1`, `x3` whole and both biases `x2`, `x4` as
  one row each, and stores one value: the block's two-layer network. Both products contract the operands' last
  axes (row against row), the changes of float format are the identity on the extended reals, each bias row is
  repeated down the block, and the rectifier is the maximum with the zero word. So at row `p` of the block and
  column `q`:

      ∑ k, max (∑ k', x0[p, k'] · x1[k, k'] + x2[0, k]) 0 · x3[q, k] + x4[0, q].
-/
import proofs.«158190_j13529146982749_2_alg».proof.Proof.Gen.KernelIdeal.Skeleton
import proofs.«158190_j13529146982749_2_alg».proof.Proof.LibMatmulRows
import proofs.«158190_j13529146982749_2_alg».proof.Proof.Mlp
import Idealize.ShloMosaic.Lib.ValueLayout
import Idealize.ShloMosaic.Lib.Pipeline.Value

noncomputable section

namespace Cert.Gin.Body

open Idealize.ShloMosaic Idealize.ShloMosaic.ValueIdx Cert.KernelIdeal Cert.KernelIdeal.Gen

/-- The body's one product shape: a block of rows against a weight matrix's rows. -/
abbrev rowsDot : DotDims S2000x128 S128x128 S2000x128 := dot_S2000x128_S128x128_S2000x128_1_1_0_0_n_n

/-! ## Where the product's two operand indices sit -/

theorem left_row (i : S2000x128.Idx) (c : rowsDot.contr.Idx) : (rowsDot.lhsIdx i c (0 : Fin 2)).val = (i (0 : Fin 2)).val := by
  unfold DotDims.lhsIdx
  rw [dif_neg (show ¬(0 : Fin S2000x128.rank) ∈ rowsDot.lhsBatch by decide), dif_pos (show (0 : Fin S2000x128.rank) ∈ rowsDot.lhsNonContracting by decide)]
  rfl

theorem left_pos (i : S2000x128.Idx) (c : rowsDot.contr.Idx) : (rowsDot.lhsIdx i c (1 : Fin 2)).val = (c ⟨0, by decide⟩).val :=
  rowsDot.lhsIdx_val_of_single rfl i c

theorem right_row (i : S2000x128.Idx) (c : rowsDot.contr.Idx) : (rowsDot.rhsIdx i c (0 : Fin 2)).val = (i (1 : Fin 2)).val := by
  unfold DotDims.rhsIdx
  rw [dif_neg (show ¬(0 : Fin S128x128.rank) ∈ rowsDot.rhsBatch by decide), dif_pos (show (0 : Fin S128x128.rank) ∈ rowsDot.rhsNonContracting by decide)]
  rfl

theorem right_pos (i : S2000x128.Idx) (c : rowsDot.contr.Idx) : (rowsDot.rhsIdx i c (1 : Fin 2)).val = (c ⟨0, by decide⟩).val :=
  rowsDot.rhsIdx_val_of_single rfl i c

/-- The body's product into the zero accumulator at `(p, q)`: row `p` of the left operand against row `q` of the right. -/
theorem product_at {φ₁ φ₂ : FTy} (l : FVec Ideal S2000x128 φ₁) (r : FVec Ideal S128x128 φ₂) (p : Fin 2000) (q : Fin 128) :
    matmul rowsDot none l r (constant S2000x128 .f32 0x00000000#32) (ix2 p q) = ∑ k : Fin 128, l (ix2 p k) * r (ix2 q k) :=
  MatmulRows.matmul_zero_rows rowsDot rfl rfl left_row left_pos right_row right_pos none l r p q

/-- A bias row repeated down the block, at `(p, q)`, is the row's entry `q`. -/
theorem bias_at (x : Vec Ideal S1x128 .f32) (p : Fin 2000) (q : Fin 128) :
    broadcastTo S2000x128 (shapeCast S1x128 x shapeCasts_S1x128_S1x128) broadcasts_S1x128_S2000x128 (ix2 p q) = x (ix2 (0 : Fin 1) q) :=
  (broadcastTo_1b_ab_apply _ broadcasts_S1x128_S2000x128 p q).trans (congrFun (shapeCast_self x shapeCasts_S1x128_S1x128) _)

/-! ## The stored value -/

/-- Entry `(p, q)` of what the body stores, from its five loads. -/
theorem pay_at (x0 : Vec Ideal S2000x128 .f32) (x1 : Vec Ideal S128x128 .f32) (x2 : Vec Ideal S1x128 .f32)
    (x3 : Vec Ideal S128x128 .f32) (x4 : Vec Ideal S1x128 .f32) (p : Fin 2000) (q : Fin 128) :
    k0_pay1 (F := Ideal) x0 x1 x2 x3 x4 (ix2 p q)
      = (∑ k : Fin 128, max ((∑ k' : Fin 128, x0 (ix2 p k') * x1 (ix2 k k')) + x2 (ix2 (0 : Fin 1) k)) Cert.Gin.zeroWord
          * x3 (ix2 q k)) + x4 (ix2 (0 : Fin 1) q) := by
  unfold k0_pay1
  refine congrArg₂ (· + ·) ?_ (bias_at x4 p q)
  refine (product_at _ _ p q).trans (Finset.sum_congr rfl fun k _ => ?_)
  refine congrArg₂ (· * ·) ?_ rfl
  refine congrArg₂ max (congrArg₂ (· + ·) ?_ (bias_at x2 p k)) rfl
  refine (product_at _ _ p k).trans (Finset.sum_congr rfl fun k' _ => ?_)
  refine congrArg₂ (· * ·) ?_ rfl
  exact congrFun (shapeCast_self x0 shapeCasts_S2000x128_S2000x128) _

end Cert.Gin.Body

end
-- ==== Proof.Entry.lean ====
/-
  The arrays the kernel's one region finds, as terms of the program's arguments.

  Before the region the program gathers one message per edge, the feature row of the edge's source node, and
  adds each message onto the feature row of the edge's destination node, starting from the features themselves: the
  region's first window stands on that node array. Both index vectors are first WRAPPED: an index below zero has
  the number of nodes added to it. The two biases are re-laid as one row each; the weight matrices are used as
  they are.
-/
import proofs.«158190_j13529146982749_2_alg».proof.Proof.Gen.KernelIdeal.Frame
import Idealize.ShloMosaic.Lib.StableHlo.Run
import Idealize.ShloMosaic.PureOps.Ideal

noncomputable section

namespace Cert.Gin.Entry

open Idealize.ShloMosaic Idealize.ShloMosaic.TcCoe Idealize.SL.Sem Idealize.ShloMosaic.StableHlo Cert.KernelIdeal Cert.KernelIdeal.Gen

/-- Row `r` of the edge list as a vector: row 0 the sources, row 1 the destinations. -/
def sources (e : IVec S2x800000 32) : IVec S800000 32 :=
  shapeCast S800000 (extractStridedSlice S1x800000 ![0, 0] e slices_S2x800000_S1x800000_0_0) shapeCasts_S1x800000_S800000

def dests (e : IVec S2x800000 32) : IVec S800000 32 :=
  shapeCast S800000 (extractStridedSlice S1x800000 ![1, 0] e slices_S2x800000_S1x800000_1_0) shapeCasts_S1x800000_S800000

/-- An index vector with the number of nodes added to every negative entry. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 100000#32))) v

/-- An index vector as a column, the layout the gather and the scatter take. -/
def column (v : IVec S800000 32) : IVec S800000x1 32 := broadcastInDim S800000x1 ![0] bcast_S800000_S800000x1_0 v

/-- One message per edge: the feature row of the edge's (wrapped) source. -/
def messages (x : FVec Ideal S100000x128 .f32) (e : IVec S2x800000 32) : FVec Ideal S800000x128 .f32 :=
  Host.gather gather_S100000x128_S800000x1_S800000x128_1_0_n_n_0_1_1128 x (column (wrap (sources e)))

/-- The kernel program's node array: the features with every message added at the given destination rows. -/
def scattered (x : FVec Ideal S100000x128 .f32) (d : IVec S800000 32) (u : FVec Ideal S800000x128 .f32) :
    FVec Ideal S100000x128 .f32 :=
  Host.scatterAdd scatter_S100000x128_S800000x1_S800000x128_1_0_0_1 x (column d) u

variable (m : (ℓ : Loc nD τ sig) → Buf (Elt Ideal) ℓ)

/-- The region's first window stands on the features with the messages added at the WRAPPED destinations. -/
theorem nodes_eq (c : Dev nD) :
    (V m c main_v17 : S100000x128.Idx → EReal)
      = scattered (m ((c : Thread nD τ).loc main_arg0)) (wrap (dests (m ((c : Thread nD τ).loc main_arg1))))
          (messages (m ((c : Thread nD τ).loc main_arg0)) (m ((c : Thread nD τ).loc main_arg1))) := by
  dsimp only [Gen.V, Gen.hostOps0]
  after_results_simp
  rfl

/-- Its third window stands on the first bias as one row. -/
theorem bias1_eq (c : Dev nD) :
    (V m c main_v18 : S1x128.Idx → EReal) = shapeCast S1x128 (m ((c : Thread nD τ).loc main_arg3)) shapeCasts_S128_S1x128 := by
  dsimp only [Gen.V, Gen.hostOps0]
  after_results_simp
  rfl

/-- Its fifth window stands on the second bias as one row. -/
theorem bias2_eq (c : Dev nD) :
    (V m c main_v19 : S1x128.Idx → EReal) = shapeCast S1x128 (m ((c : Thread nD τ).loc main_arg5)) shapeCasts_S128_S1x128 := by
  dsimp only [Gen.V, Gen.hostOps0]
  after_results_simp
  rfl

end Cert.Gin.Entry

end
-- ==== Proof.Blocks.lean ====
/-
  From what each grid point writes to the kernel's whole result array.

  The region runs the body at 50 grid points. At point `t` the first window holds rows `2000·t … 2000·t + 1999`
  of the node array, the other four windows hold the two weight matrices and the two bias rows whole, and the
  output window's block is the same 2000 rows of the result. A row of the network depends on the same row of the
  node array only, so what point `t` writes is rows `2000·t …` of ONE whole-array function: the network of the
  node array the region finds. The 50 blocks tile the 100000 rows (row `r` is in block `r / 2000`), so after the run
  the result array is that function everywhere.
-/
import proofs.«158190_j13529146982749_2_alg».proof.Proof.Gen.KernelIdeal.Value
import proofs.«158190_j13529146982749_2_alg».proof.Proof.Payload
import proofs.«158190_j13529146982749_2_alg».proof.Proof.Entry
import Idealize.ShloMosaic.Lib.Pipeline.Value
import Idealize.ShloMosaic.Lib.ValueLayout

noncomputable section

namespace Cert.Gin.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- A bias kept as one row, read as a vector. -/
def rowOf (B : S1x128.Idx → EReal) : Cert.Gin.Bias.Idx → EReal := fun j => B (ix2 (0 : Fin 1) (j 0))

/-- The kernel's result as ONE function of the arrays the region finds: their two-layer network. -/
def G (c : Dev nD) : S100000x128.Idx → EReal :=
  Cert.Gin.mlp (V m c main_v17) (V m c main_arg2) (rowOf (V m c main_v18)) (V m c main_arg4) (rowOf (V m c main_v19))

/-- The printed index maps, decided over the grid: the node window and the output window move down one block of
    rows per point, the other four windows stay on block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input windows' blocks -/

/-- Row `p` of the node window's block at point `t` is row `2000·t + p` of the node array. -/
theorem nodes_blk (c : Dev nD) (t : Fin cfg0.N) (p : Fin 2000) (k : Fin 128) (P : Fin 100000) (hP : P.val = t.val * 2000 + p.val) :
    (iblk m c 0 t : Vec Ideal S2000x128 .f32) (ix2 p k) = (V m c main_v17 : S100000x128.Idx → EReal) (ix2 P k) := by
  obtain ⟨e0, e1, -⟩ := idx_facts t
  show V m c main_v17 (((cfg0.win 0).blk t).view.emb (ix2 p k)) = V m c main_v17 (ix2 P k)
  refine congrArg _ (funext fun a => Fin.ext ?_)
  match a with
  | ⟨0, _⟩ => show win0_0.index t (0 : Fin 2) * 2000 + 1 * p.val = P.val; rw [e0, hP]; omega
  | ⟨1, _⟩ => show win0_0.index t (1 : Fin 2) * 128 + 1 * k.val = k.val; rw [e1]; omega

/-- The first weight window's block is the whole matrix at every point. -/
theorem w1_blk (c : Dev nD) (t : Fin cfg0.N) : (iblk m c 1 t : Vec Ideal S128x128 .f32) = V m c main_arg2 := by
  obtain ⟨-, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The first bias window's block is the whole row. -/
theorem b1_blk (c : Dev nD) (t : Fin cfg0.N) : (iblk m c 2 t : Vec Ideal S1x128 .f32) = V m c main_v18 := by
  obtain ⟨-, -, -, -, e0, e1, -⟩ := idx_facts t
  funext y
  show V m c main_v18 (((cfg0.win 2).blk t).view.emb y) = V m c main_v18 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight window's block is the whole matrix. -/
theorem w2_blk (c : Dev nD) (t : Fin cfg0.N) : (iblk m c 3 t : Vec Ideal S128x128 .f32) = V m c main_arg4 := by
  obtain ⟨-, -, -, -, -, -, e0, e1, -⟩ := idx_facts t
  funext y
  show V m c main_arg4 (((cfg0.win 3).blk t).view.emb y) = V m c main_arg4 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second bias window's block is the whole row. -/
theorem b2_blk (c : Dev nD) (t : Fin cfg0.N) : (iblk m c 4 t : Vec Ideal S1x128 .f32) = V m c main_v19 := by
  obtain ⟨-, -, -, -, -, -, -, -, e0, e1, -⟩ := idx_facts t
  funext y
  show V m c main_v19 (((cfg0.win 4).blk t).view.emb y) = V m c main_v19 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Entry `(p, q)` of the output window's block at point `t` is entry `(2000·t + p, q)` of the result array. -/
theorem out_emb (t : Fin cfg0.N) (p : Fin 2000) (q : Fin 128) (P : Fin 100000) (hP : P.val = t.val * 2000 + p.val) :
    ((cfg0.win 5).blk t).view.emb (ix2 p q) = (ix2 P q : S100000x128.Idx) := by
  obtain ⟨-, -, -, -, -, -, -, -, -, -, e0, e1⟩ := idx_facts t
  refine funext fun a => Fin.ext ?_
  match a with
  | ⟨0, _⟩ => show win0_5.index t (0 : Fin 2) * 2000 + 1 * p.val = P.val; rw [e0, hP]; omega
  | ⟨1, _⟩ => show win0_5.index t (1 : Fin 2) * 128 + 1 * q.val = q.val; rw [e1]; omega

/-! ## What a point writes back -/

/-- WHAT POINT `t` WRITES BACK is block `t` of `G`. -/
theorem flushed_eq (c : Dev nD) (t : Fin cfg0.N) :
    (dats m 0 c).flushed 5 t = ((cfg0.win 5).blk t).view.read (Elt Ideal) (G m c) := by
  rw [flushed5]
  unfold out0_5
  rw [View.canon_unit_zero hz]
  simp only [View.ld_unit_zero (S := S2000x128) hz, View.ld_unit_zero (S := S128x128) hz, View.ld_unit_zero (S := S1x128) hz]
  rw [w1_blk m c t, b1_blk m c t, w2_blk m c t, b2_blk m c t]
  funext j
  obtain ⟨p, q, rfl⟩ : ∃ (p : Fin 2000) (q : Fin 128), j = ix2 p q := ⟨j 0, j 1, eq_ix2 j⟩
  have ht : t.val < 50 := by have h := t.isLt; have hN : cfg0.N = 50 := N_0; omega
  have hP : t.val * 2000 + p.val < 100000 := by have := p.isLt; omega
  show k0_pay1 (F := Ideal) (iblk m c 0 t) (V m c main_arg2) (V m c main_v18) (V m c main_arg4) (V m c main_v19) (ix2 p q)
    = G m c (((cfg0.win 5).blk t).view.emb (ix2 p q))
  rw [out_emb t p q ⟨_, hP⟩ rfl]
  refine (Cert.Gin.Body.pay_at _ _ _ _ _ p q).trans ?_
  unfold G
  rw [Cert.Gin.mlp_apply]
  refine congrArg₂ (· + ·) (Finset.sum_congr rfl fun k _ => ?_) rfl
  refine congrArg₂ (· * ·) ?_ rfl
  unfold Cert.Gin.hidden
  refine congrArg₂ max (congrArg₂ (· + ·) (Finset.sum_congr rfl fun k' _ => ?_) rfl) rfl
  exact congrArg₂ (· * ·) (nodes_blk m c t p k' ⟨_, hP⟩ rfl) rfl

/-! ## The cover -/

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Every row of the result array is in the block of the point `row / 2000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]; omega

/-! ## The array after the run -/

/-- The result array after the run is `G`. -/
theorem final (c : Dev nD) : (dats m 0 c).arrAt 5 cfg0.N = G m c :=
  (dats m 0 c).arrAt_eq_of_cover 5 (G m c) (fun t _ => flushed_eq m c t) cover

/-- A bias re-laid as one row and read back as a vector is the bias. -/
theorem rowOf_cast (b : S128.Idx → EReal) : rowOf (shapeCast S1x128 b shapeCasts_S128_S1x128) = b := by
  funext j
  rw [eq_ix1 j]
  exact shapeCast_a_1a_apply b shapeCasts_S128_S1x128 (0 : Fin 1) (j 0)

/-- `G` as a function of the program's arguments: the network of the features with the messages added at the
    wrapped destinations. -/
theorem G_eq (c : Dev nD) :
    G m c = Cert.Gin.mlp
      (Cert.Gin.Entry.scattered (m ((c : Thread nD τ).loc main_arg0)) (Cert.Gin.Entry.wrap (Cert.Gin.Entry.dests (m ((c : Thread nD τ).loc main_arg1))))
        (Cert.Gin.Entry.messages (m ((c : Thread nD τ).loc main_arg0)) (m ((c : Thread nD τ).loc main_arg1))))
      (m ((c : Thread nD τ).loc main_arg2)) (m ((c : Thread nD τ).loc main_arg3))
      (m ((c : Thread nD τ).loc main_arg4)) (m ((c : Thread nD τ).loc main_arg5)) := by
  unfold G
  rw [Cert.Gin.Entry.nodes_eq m c, V_main_arg2 m c, V_main_arg4 m c, Cert.Gin.Entry.bias1_eq m c, Cert.Gin.Entry.bias2_eq m c,
    rowOf_cast, rowOf_cast]

/-! ## The run, read -/

/-- The frame run re-posted: the result array at `G`, the arguments unchanged. -/
theorem run : θ_run defs (onTc (τ := τ) (main (F := Ideal))) ⟨m, fun _ => 0, ρ⟩ fun r => ∀ c : Dev nD,
      r.2.mem ((c : Thread nD τ).loc main_v20) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Gin.Blocks

end
-- ==== Proof.Domain.lean ====
/-
  What the precondition says about the edge list, and what follows for the wrapped destinations.

  The precondition's last conjunct is "every destination index is at least zero", spelt as an `and`-reduction of
  the signed comparison of the edge list's second row with zero. Read back, it gives `0 ≤ d` for every entry `d`
  of that row. The kernel program wraps an index only when it is below zero, so on such a row the wrap changes
  nothing: the kernel program scatters at exactly the rows the edge list names.
-/
import proofs.«158190_j13529146982749_2_alg».proof.Pre_finite_inputs
import proofs.«158190_j13529146982749_2_alg».proof.Proof.Gen.Pre_finite_inputs
import proofs.«158190_j13529146982749_2_alg».proof.Proof.Entry
import Idealize.ShloMosaic.Lib.ReduceAll
import Idealize.ShloMosaic.Lib.Affine
import Idealize.ShloMosaic.Lib.ValueIdx

noncomputable section

namespace Cert.Gin.Domain

open Idealize.ShloMosaic Cert.Gin.Entry

/-- The rank-0 shape has one index. -/
instance : Subsingleton Cert.Pre_finite_inputs.S_.Idx := ⟨fun _ _ => funext fun d => d.elim0⟩

/-- Under the precondition every destination index is at least zero. -/
theorem dests_nonneg (x0 : FVec Ideal Cert.Pre_finite_inputs.S100000x128 .f32) (x1 : IVec Cert.Pre_finite_inputs.S2x800000 32)
    (x2 : FVec Ideal Cert.Pre_finite_inputs.S128x128 .f32) (x3 : FVec Ideal Cert.Pre_finite_inputs.S128 .f32)
    (x4 : FVec Ideal Cert.Pre_finite_inputs.S128x128 .f32) (x5 : FVec Ideal Cert.Pre_finite_inputs.S128 .f32)
    (h : Cert.Pre_finite_inputs.fn (F := Ideal) x0 x1 x2 x3 x4 x5 = fun _ => 1#1) (e : Cert.KernelIdeal.S800000.Idx) :
    0 ≤ (dests x1 e).toInt := by
  have h0 := congrFun h ValueIdx.ix0
  dsimp only [Cert.Pre_finite_inputs.fn, Cert.Pre_finite_inputs.fn_part1] at h0
  change IntOp.andi _ _ = 1#1 at h0
  obtain ⟨-, h1⟩ := IntOp.andi_eq_one.1 h0
  have h2 := Host.reduce_andi_all _ _ _ _ _ h1 e
  exact IntOp.cmpi_sge.1 h2

/-- Wrapping a vector of indices that are all at least zero changes nothing. -/
theorem wrap_of_nonneg (v : IVec Cert.KernelIdeal.S800000 32) (hv : ∀ e, 0 ≤ (v e).toInt) : wrap v = v := by
  funext e
  have hc : IntOp.cmpi .slt (v e) 0#32 = 0#1 :=
    ValueIdx.eq_zero_of_ne_one fun h1 => by
      have h2 := IntOp.cmpi_slt.1 h1
      have h0 : (0#32 : BitVec 32).toInt = 0 := by decide
      have h3 := hv e
      omega
  show Scalar.select (IntOp.cmpi .slt (v e) 0#32) (IntOp.addi (v e) 100000#32) (v e) = v e
  rw [hc]
  exact ValueIdx.select_zero _ _

/-- So under the precondition the wrapped destinations are the destinations. -/
theorem wrap_dests (x0 : FVec Ideal Cert.Pre_finite_inputs.S100000x128 .f32) (x1 : IVec Cert.Pre_finite_inputs.S2x800000 32)
    (x2 : FVec Ideal Cert.Pre_finite_inputs.S128x128 .f32) (x3 : FVec Ideal Cert.Pre_finite_inputs.S128 .f32)
    (x4 : FVec Ideal Cert.Pre_finite_inputs.S128x128 .f32) (x5 : FVec Ideal Cert.Pre_finite_inputs.S128 .f32)
    (h : Cert.Pre_finite_inputs.fn (F := Ideal) x0 x1 x2 x3 x4 x5 = fun _ => 1#1) :
    wrap (dests x1) = dests x1 :=
  wrap_of_nonneg _ (dests_nonneg x0 x1 x2 x3 x4 x5 h)

end Cert.Gin.Domain

end
-- ==== Proof.LibScatterZero.lean ====
/-
  An accumulating scatter that starts from an array is that array plus the same scatter started from zeros.

  On the extended reals the host's accumulating scatter is exact: every entry of the result is the entry of the
  starting array plus the sum of the updates that land on it. So for any array `z` that is zero everywhere,

      scatterAdd x idx upd [i] = x[i] + scatterAdd z idx upd [i],

  by `0 + s = s`, which holds for every extended real `s`: no finiteness is needed. Stated for any shapes and any
  dimension numbers.
-/
import Idealize.ShloMosaic.PureOps.Ideal

noncomputable section

open scoped BigOperators

namespace Idealize.ShloMosaic.ScatterZero

open Idealize.ShloMosaic

variable {s si su : Shape}

/-- The exact scatter from `x` at an entry, against the scatter from an all-zero array. -/
theorem hostScatterAdd_add_zero (d : ScatterDims s si su) {w : Nat} (x z : s.Idx → EReal) (idx : IVec si w)
    (upd : su.Idx → EReal) (hz : ∀ i, z i = 0) (i : s.Idx) :
    Ideal.hostScatterAdd d x idx upd i = x i + Ideal.hostScatterAdd d z idx upd i := by
  unfold Ideal.hostScatterAdd
  rw [hz i, zero_add]

/-- The same for the printed host operation at the ideal instance. -/
theorem scatterAdd_add_zero {φ : FTy} (d : ScatterDims s si su) {w : Nat} (x z : s.Idx → EReal) (idx : IVec si w)
    (upd : su.Idx → EReal) (hz : ∀ i, z i = 0) (i : s.Idx) :
    Host.scatterAdd (F := Ideal) (φ := φ) d x idx upd i = x i + Host.scatterAdd (F := Ideal) (φ := φ) d z idx upd i :=
  hostScatterAdd_add_zero d x z idx upd hz i

end Idealize.ShloMosaic.ScatterZero

end
-- ==== Proof.Nodes.lean ====
/-
  The two programs' node arrays are one array.

  The kernel program adds the messages onto the features in one scatter that STARTS from the features; the reference
  scatters them onto an array of zeros and adds the features afterwards. On the extended reals the scatter is
  exact: every entry is its starting value plus the sum of the messages that land on it. So the first is
  `x + ∑` and the second `x + (0 + ∑)` over the same messages, provided both scatter at the same rows — and the
  kernel program's rows are the reference's once the wrap of the destinations changes nothing.
-/
import proofs.«158190_j13529146982749_2_alg».proof.Proof.Entry
import proofs.«158190_j13529146982749_2_alg».proof.Proof.LibScatterZero
import proofs.«158190_j13529146982749_2_alg».proof.Proof.Gen.ReferenceIdeal.Read
import Idealize.ShloMosaic.PureOps.Ideal.Laws

noncomputable section

namespace Cert.Gin.Nodes

open Idealize.ShloMosaic Cert.Gin.Entry Cert.KernelIdeal Cert.KernelIdeal.Gen Cert.ReferenceIdeal.Read

/-! ## The two programs' dimension numbers, index columns and messages are the same -/

theorem scatter_rec : scatter_S100000x128_S800000x1_S800000x128_1_0_0_1
    = Cert.ReferenceIdeal.scatter_S100000x128_S800000x1_S800000x128_1_0_0_1 := rfl

theorem gather_rec : gather_S100000x128_S800000x1_S800000x128_1_0_n_n_0_1_1128
    = Cert.ReferenceIdeal.gather_S100000x128_S800000x1_S800000x128_1_0_n_n_0_1_1128 := rfl

/-- The destinations as a column are the reference's scatter indices. -/
theorem col_eq (e : IVec S2x800000 32) : column (dests e) = val_main_v12 (F := Ideal) e := by
  unfold column dests val_main_v12 val_main_v3 val_main_v2
  with_reducible rfl

/-- The messages are the reference's: the feature rows at the wrapped sources. -/
theorem msgs_eq (x : FVec Ideal S100000x128 .f32) (e : IVec S2x800000 32) : messages x e = val_main_v10 (F := Ideal) x e := by
  unfold messages column sources wrap
  unfold val_main_v10 val_main_v9 val_main_v8 val_main_v7 val_main_v6 val_main_v5 val_main_v4 val_main_v1 val_main_v0
    val_main_c val_main_c_0
  rw [gather_rec]

/-- The array the reference scatters onto is zero everywhere. -/
theorem zero_at (i : Cert.ReferenceIdeal.S100000x128.Idx) : val_main_v11 (F := Ideal) i = 0 := by
  rw [val_main_v11_apply, val_main_cst_apply, Ideal.ofBits_def, Ideal.ofBits_zero_f32]

/-! ## The node arrays -/

/-- When wrapping the destinations changes nothing, the kernel program's node array is the reference's node stage:
    the features plus the messages summed at their destination rows. -/
theorem nodes_eq_ref (x : FVec Ideal S100000x128 .f32) (e : IVec S2x800000 32) (hw : wrap (dests e) = dests e) :
    scattered x (wrap (dests e)) (messages x e) = val_main_v14 (F := Ideal) x e := by
  rw [hw]
  funext i
  rw [val_main_v14_apply]
  unfold val_main_v13 scattered
  rw [col_eq e, msgs_eq x e, scatter_rec]
  exact ScatterZero.scatterAdd_add_zero _ x _ _ _ zero_at i

end Cert.Gin.Nodes

end
-- ==== Proof.lean ====
/- The proof of `Cert.Claim` (proofs.«158190_j13529146982749_2_alg».proof.Defs).

   Both programs send a graph's node features through one round of message passing and a two-layer network. Every
   edge carries the feature row of its source node to its destination node; a node's new row is its own features
   plus the sum of the rows that arrive; the network is two products with transposed weight matrices, a bias after
   each and a rectifier between them.

   The kernel program forms the node array in one scatter that starts from the features, after WRAPPING the
   destination indices (a negative index has the number of nodes added), and runs the network one block of 2000 rows
   per grid point. The reference scatters onto zeros at the destination indices as given, adds the features, and runs
   the network on the whole array. A negative destination index therefore lands on a row in the first program and
   falls outside the array in the second: the two agree where every destination index is at least zero, which the
   precondition states beside the finiteness of the float inputs. Finiteness itself is never used: the only laws
   needed are `0 + s = s` and that a sum may be re-indexed, both valid on all extended reals.

   The pieces: `Proof/Mlp` (the network as one function of the node array), `Proof/RefMlp` (the reference's
   result is that function of its node array), `Proof/Payload` over `Proof/LibMatmulRows` (what the kernel body
   stores, entry by entry), `Proof/Entry` (the arrays the region finds, as terms of the arguments), `Proof/Blocks`
   (from the 50 written blocks to the whole result array), `Proof/Domain` (the precondition read back: the wrap
   changes nothing) and `Proof/Nodes` (the two node arrays are one). The three frames are the generated runs;
   the kernel's idealization rewrote nothing, so that conjunct is `True`. -/
import proofs.«158190_j13529146982749_2_alg».proof.Defs
import proofs.«158190_j13529146982749_2_alg».proof.Proof.Gen.Kernel
import proofs.«158190_j13529146982749_2_alg».proof.Proof.Gen.Kernel.Frame
import proofs.«158190_j13529146982749_2_alg».proof.Proof.Gen.KernelIdeal
import proofs.«158190_j13529146982749_2_alg».proof.Proof.Gen.KernelIdeal.Frame
import proofs.«158190_j13529146982749_2_alg».proof.Proof.Gen.KernelIdeal.Value
import proofs.«158190_j13529146982749_2_alg».proof.Proof.Gen.ReferenceIdeal
import proofs.«158190_j13529146982749_2_alg».proof.Proof.Gen.ReferenceIdeal.Run
import proofs.«158190_j13529146982749_2_alg».proof.Proof.Gen.ReferenceIdeal.Read
import proofs.«158190_j13529146982749_2_alg».proof.Proof.Gen.Pre_finite_inputs
import proofs.«158190_j13529146982749_2_alg».proof.Proof.RefMlp
import proofs.«158190_j13529146982749_2_alg».proof.Proof.Blocks
import proofs.«158190_j13529146982749_2_alg».proof.Proof.Domain
import proofs.«158190_j13529146982749_2_alg».proof.Proof.Nodes
import Idealize.ShloMosaic.Adequacy
import Idealize.ShloMosaic.Init

noncomputable section

namespace Cert.Proof

open Idealize.ShloMosaic Idealize.SL.Sem

/-- The word-level kernel program runs and leaves its arguments as they were: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the two-layer network of one node array: the kernel's result array
    is the network of the features with the messages added at the wrapped destinations (`Blocks.run`, `Blocks.G_eq`),
    the reference's is the network of the features plus the messages summed at the destinations as given
    (`Ref.result_eq`), and under the precondition the wrap changes nothing (`Domain.wrap_dests`, `Nodes.nodes_eq_ref`). -/
theorem algebraic : Cert.algebraic_KernelIdeal_ReferenceIdeal := by
  intro m ρ m' ρ' hpre hagree
  refine ⟨fun c => Cert.Gin.Blocks.G m c, Cert.Gin.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  show _ = Cert.Gin.Blocks.G m c
  rw [Cert.ReferenceIdeal.Read.val_main_v25_eq, Cert.Gin.Ref.result_eq, a0, a1, a2, a3, a4, a5, Cert.Gin.Blocks.G_eq,
    Cert.Gin.Nodes.nodes_eq_ref _ _ (Cert.Gin.Domain.wrap_dests _ _ _ _ _ _ (hpre c))]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
